-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  main_v3
-- ==== Kernel.lean ====
abbrev S8x2048x3 : Shape := ⟨3, ![8, 2048, 3]⟩
abbrev S8x3x2048 : Shape := ⟨3, ![8, 3, 2048]⟩
abbrev S8x2048x2048 : Shape := ⟨3, ![8, 2048, 2048]⟩
abbrev S1x512x3 : Shape := ⟨3, ![1, 512, 3]⟩
abbrev S1x3x2048 : Shape := ⟨3, ![1, 3, 2048]⟩
abbrev S1x512x2048 : Shape := ⟨3, ![1, 512, 2048]⟩
abbrev S512x3 : Shape := ⟨2, ![512, 3]⟩
abbrev S3x2048 : Shape := ⟨2, ![3, 2048]⟩
abbrev S512x2048 : Shape := ⟨2, ![512, 2048]⟩
abbrev S512x1 : Shape := ⟨2, ![512, 1]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x3, .f32⟩
  | .hbm, ⟨1, _⟩ => ⟨S8x3x2048, .f32⟩
  | .hbm, ⟨2, _⟩ => ⟨S8x2048x2048, .f32⟩
  | .local _ .vmem, ⟨0, _⟩ => ⟨S1x512x3, .f32⟩
  | .local _ .vmem, ⟨1, _⟩ => ⟨S1x512x3, .f32⟩
  | .local _ .vmem, ⟨2, _⟩ => ⟨S1x3x2048, .f32⟩
  | .local _ .vmem, ⟨3, _⟩ => ⟨S1x3x2048, .f32⟩
  | .local _ .vmem, ⟨4, _⟩ => ⟨S1x512x2048, .f32⟩
  | .local _ .vmem, ⟨5, _⟩ => ⟨S1x512x2048, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S8x2048x3_S8x3x2048_0_2_1 : S8x2048x3.Transposes [0, 2, 1] S8x3x2048
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  slices_S512x3_o0_0_S512x1 : S512x3.Slices ![0, 0] S512x1
  slices_S3x2048_o0_0_S1x2048 : S3x2048.Slices ![0, 0] S1x2048
  broadcasts_S512x1_S512x2048 : S512x1.Broadcasts S512x2048
  broadcasts_S1x2048_S512x2048 : S1x2048.Broadcasts S512x2048
  slices_S512x3_o0_1_S512x1 : S512x3.Slices ![0, 1] S512x1
  slices_S3x2048_o1_0_S1x2048 : S3x2048.Slices ![1, 0] S1x2048
  slices_S512x3_o0_2_S512x1 : S512x3.Slices ![0, 2] S512x1
  slices_S3x2048_o2_0_S1x2048 : S3x2048.Slices ![2, 0] S1x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x2048x3.size a
  hwx0_0 : ∀ i : grid0.Coords, EltTy.bits .f32 = 32 ∨ (Rect.block (s := S8x2048x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S8x3x2048.size a
  hwx0_1 : ∀ i : grid0.Coords, EltTy.bits .f32 = 32 ∨ (Rect.block (s := S8x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x2048x2048.size a
  hwx0_2 : ∀ i : grid0.Coords, EltTy.bits .f32 = 32 ∨ (Rect.block (s := S8x2048x2048) S1x512x2048.size (cc0_transform_2 i) (hinb0_2 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x3 : Shape := ⟨3, ![8, 2048, 3]⟩
abbrev S8x1x2048x3 : Shape := ⟨4, ![8, 1, 2048, 3]⟩
abbrev S8x2048x1x3 : Shape := ⟨4, ![8, 2048, 1, 3]⟩
abbrev S8x2048x2048x3 : Shape := ⟨4, ![8, 2048, 2048, 3]⟩
abbrev S_ : Shape := ⟨0, ![]⟩
abbrev S8x2048x2048 : Shape := ⟨3, ![8, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x1x2048x3, .f32⟩
  | .hbm, ⟨2, _⟩ => ⟨S8x2048x1x3, .f32⟩
  | .hbm, ⟨3, _⟩ => ⟨S8x2048x2048x3, .f32⟩
  | .hbm, ⟨4, _⟩ => ⟨S8x2048x2048x3, .f32⟩
  | .hbm, ⟨5, _⟩ => ⟨S8x2048x2048x3, .f32⟩
  | .hbm, ⟨6, _⟩ => ⟨S8x2048x2048x3, .f32⟩
  | .hbm, ⟨7, _⟩ => ⟨S_, .f32⟩
  | .hbm, ⟨8, _⟩ => ⟨S8x2048x2048, .f32⟩
  | .hbm, ⟨9, _⟩ => ⟨S8x2048x2048, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  bcast_S8x2048x3_S8x1x2048x3_0_2_3 : S8x2048x3.BroadcastsInDim S8x1x2048x3 (![0, 2, 3] : Fin 3 → Fin S8x1x2048x3.rank)
  bcast_S8x2048x3_S8x2048x1x3_0_1_3 : S8x2048x3.BroadcastsInDim S8x2048x1x3 (![0, 1, 3] : Fin 3 → Fin S8x2048x1x3.rank)
  bcast_S8x1x2048x3_S8x2048x2048x3_0_1_2_3 : S8x1x2048x3.BroadcastsInDim S8x2048x2048x3 (![0, 1, 2, 3] : Fin 4 → Fin S8x2048x2048x3.rank)
  bcast_S8x2048x1x3_S8x2048x2048x3_0_1_2_3 : S8x2048x1x3.BroadcastsInDim S8x2048x2048x3 (![0, 1, 2, 3] : Fin 4 → Fin S8x2048x2048x3.rank)
  reducesTo_S8x2048x2048x3_S8x2048x2048_d3 : S8x2048x2048x3.ReducesTo [3] S8x2048x2048
  h_S_ : 0 < S_.numel

variable [Facts₀]

class Facts : Prop extends Facts₀ where

variable [Facts]
-- ==== Proof.DistLaw.lean ====
import Idealize.ShloMosaic.PureOps.Ideal
import Idealize.ShloMosaic.PureOps.Ideal.Laws
import Idealize.ShloMosaic.Lib.ValueIdx

/-!
# Pairwise Euclidean distances of a batch of point clouds: the specification and the one law

For a batch of 8 clouds of 2048 points in three coordinates, `x : [8, 2048, 3]`, the result is the array
`[8, 2048, 2048]` whose entry `(b, i, j)` is the distance between points `i` and `j` of cloud `b`:
the square root of the sum over the three coordinates `k` of `(x[b, j, k] - x[b, i, k])²`.

One program accumulates the three squares of `x[b, i, k] - x[b, j, k]` one after the other onto a zero; the
other sums the squares of `x[b, j, k] - x[b, i, k]` over `k` starting from a zero. On the extended reals the
two agree: a difference and its opposite have the same square, whatever the operands (at the infinities
too: both differences are then infinite, or both `⊥`, and every such square is `⊤`), and a sum of three terms
does not depend on how it is bracketed.
-/

noncomputable section

namespace Cert.Dist

open Idealize.ShloMosaic Idealize.ShloMosaic.ValueIdx

/-- The shape of the batch of point clouds. -/
abbrev SPts : Shape := ⟨3, ![8, 2048, 3]⟩
/-- The shape of the batch of distance matrices. -/
abbrev SOut : Shape := ⟨3, ![8, 2048, 2048]⟩

/-- The distance between points `i` and `j` of cloud `b`, as the reference spells it: the root of a zero plus
    the sum over the coordinates of the squares of `x[b, j, k] - x[b, i, k]`. -/
def distAt (x : SPts.Idx → EReal) (b : Fin 8) (i j : Fin 2048) : EReal :=
  Ideal.sqrt (Ideal.ofBits .f32 0x00000000#32
    + ∑ k : Fin 3, (x (ix3 b j k) - x (ix3 b i k)) * (x (ix3 b j k) - x (ix3 b i k)))

/-- The whole array of distances. -/
def dist (x : SPts.Idx → EReal) : SOut.Idx → EReal := fun y => distAt x (y 0) (y 1) (y 2)

theorem dist_ix3 (x : SPts.Idx → EReal) (b : Fin 8) (i j : Fin 2048) : dist x (ix3 b i j) = distAt x b i j := rfl

/-- A difference and its opposite have the same square, on all of the extended reals. -/
theorem sub_mul_self_comm (u v : EReal) : (u - v) * (u - v) = (v - u) * (v - u) := by
  induction u using EReal.rec <;> induction v using EReal.rec
  · rfl
  · rw [EReal.bot_sub, EReal.coe_sub_bot]; rfl
  · rw [EReal.bot_sub, EReal.top_sub_bot]; rfl
  · rw [EReal.bot_sub, EReal.coe_sub_bot]; rfl
  · rename_i a b
    rw [← EReal.coe_sub, ← EReal.coe_sub, ← EReal.coe_mul, ← EReal.coe_mul]
    exact congrArg _ (by ring)
  · rw [EReal.top_sub_coe, EReal.sub_top]; rfl
  · rw [EReal.bot_sub, EReal.top_sub_bot]; rfl
  · rw [EReal.top_sub_coe, EReal.sub_top]; rfl
  · rfl

/-- Three squares accumulated one after the other onto `z`, of the differences `p k - q k`, are `z` plus the
    sum over `k` of the squares of the opposite differences `q k - p k`. -/
theorem accumulated_eq_sum (z : EReal) (p q : Fin 3 → EReal) :
    ((z + (p 0 - q 0) * (p 0 - q 0)) + (p 1 - q 1) * (p 1 - q 1)) + (p 2 - q 2) * (p 2 - q 2)
      = z + ∑ k : Fin 3, (q k - p k) * (q k - p k) := by
  rw [Fin.sum_univ_three, sub_mul_self_comm (q 0) (p 0), sub_mul_self_comm (q 1) (p 1),
    sub_mul_self_comm (q 2) (p 2), add_assoc, add_assoc, add_assoc]

end Cert.Dist

end
-- ==== Proof.RefDist.lean ====
import proofs.«150329_j84335977825047_2_alg».proof.Proof.Gen.ReferenceIdeal.Read
import proofs.«150329_j84335977825047_2_alg».proof.Proof.DistLaw

/-!
# The reference computes the distances

The reference lays the cloud out twice as a rank-4 array `[8, 2048, 2048, 3]` — once constant along axis 1
(entry `(b, i, j, k)` is `x[b, j, k]`), once constant along axis 2 (entry `(b, i, j, k)` is `x[b, i, k]`) —,
subtracts the second from the first, squares, sums over the last axis from a zero and takes the root. Read at
an index `(b, i, j)` that is `Cert.Dist.distAt x b i j` as written.
-/

noncomputable section

namespace Cert.ReferenceIdeal.RefValue

open Cert.ReferenceIdeal Cert.ReferenceIdeal.Gen Cert.ReferenceIdeal.Read
open Idealize.ShloMosaic Idealize.ShloMosaic.ValueIdx Cert.Dist

/-- The reference's last stage, at the extended reals, is the array of distances of its argument. -/
theorem result_eq (x : (⟨S8x2048x3, .f32⟩ : BufTy).Contents (Elt Ideal)) :
    val_main_v7 (F := Ideal) x = dist x := by
  funext i
  -- through the two broadcasts, entry (b, i, j, k) of the first layout reads x[b, j, k] …
  have ea : ∀ k : Fin 3, idx_main_v0 (idx_main_v2 (idx_main_v6 i k)) = ix3 (i 0) (i 2) k := fun k =>
    funext fun a => Fin.ext (by match a with | ⟨0, _⟩ => rfl | ⟨1, _⟩ => rfl | ⟨2, _⟩ => rfl)
  -- … and of the second x[b, i, k]
  have eb : ∀ k : Fin 3, idx_main_v1 (idx_main_v3 (idx_main_v6 i k)) = ix3 (i 0) (i 1) k := fun k =>
    funext fun a => Fin.ext (by match a with | ⟨0, _⟩ => rfl | ⟨1, _⟩ => rfl | ⟨2, _⟩ => rfl)
  rw [val_main_v7_apply, val_main_v6_apply]
  simp only [val_main_v5_apply, val_main_v4_apply, val_main_v2_apply, val_main_v3_apply, val_main_v0_apply,
    val_main_v1_apply, val_main_cst_apply, ea, eb, Ideal.hostUnary_sqrt_def, Ideal.subf_def, Ideal.mulf_def,
    Ideal.ofBits_def]
  rfl

end Cert.ReferenceIdeal.RefValue

end
-- ==== Proof.KernelDist.lean ====
import proofs.«150329_j84335977825047_2_alg».proof.Proof.Gen.KernelIdeal.Value
import proofs.«150329_j84335977825047_2_alg».proof.Proof.DistLaw
import Idealize.ShloMosaic.Lib.Pipeline.Value
import Idealize.ShloMosaic.Lib.StableHlo.Run
import Idealize.ShloMosaic.Lib.ValueIdx

/-!
# The kernel computes the distances

The grid has 8 × 4 points; point `t` is cloud `b = t / 4` and row tile `t % 4`. At that point the kernel reads
rows `512 (t % 4) … 512 (t % 4) + 511` of cloud `b` (a `[1, 512, 3]` block of the argument) and the whole
transposed cloud `b` (a `[1, 3, 2048]` block of the argument transposed on its last two axes, which the host
computes before the launch), and writes rows `512 (t % 4) …` of the `b`-th distance matrix: entry `(r, n)` of the
block is the root of the three squares of `x[b, 512 (t % 4) + r, k] - x[b, n, k]` accumulated onto a zero.
By the one law of `Cert.Dist` that is entry `(b, 512 (t % 4) + r, n)` of `Cert.Dist.dist x`; the 32 blocks tile
the result, so the result array ends holding `Cert.Dist.dist x`.
-/

noncomputable section

namespace Cert.KernelIdeal.DistValue

open Cert.KernelIdeal Cert.KernelIdeal.Gen Cert.KernelIdeal.Value
open Idealize.ShloMosaic Idealize.ShloMosaic.TcCoe Idealize.SL.Sem Idealize.ShloMosaic.ValueIdx Cert.Dist
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The block indices of the three windows at grid point `t`: the cloud `t / 4` for all three, the row tile
    `t % 4` for the rows read and the rows written, and nothing else moves. -/
theorem block_indices : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0 :=
  (by decide +kernel : ∀ t : Fin grid0.N, _)

/-- What the region finds in the second operand's array: the argument with its last two axes exchanged. -/
theorem transposed_arg (c : Dev nD) :
    (V m c main_v0 : S8x3x2048.Idx → EReal)
      = transpose S8x3x2048 [0, 2, 1] (m ((c : Thread nD τ).loc main_arg0)) transposes_S8x2048x3_S8x3x2048_0_2_1 := by
  dsimp only [Gen.V, Gen.hostOps0]; after_results

/-- The rows read at point `t`: entry `(0, r, d)` of the block is `x[t / 4, 512 (t % 4) + r, d]`. -/
theorem rows_read (c : Dev nD) (t : Fin cfg0.N) (u : S1x512x3.Idx) (k : S8x2048x3.Idx)
    (h0 : (k 0).val = t.val / 4) (h1 : (k 1).val = t.val % 4 * 512 + (u 1).val) (h2 : (k 2).val = (u 2).val) :
    (iblk m c 0 t : Vec Ideal S1x512x3 .f32) u = (m ((c : Thread nD τ).loc main_arg0) : S8x2048x3.Idx → EReal) k := by
  obtain ⟨e0, e1, e2, -⟩ := block_indices t
  have hu0 : (u 0).val < 1 := (u 0).isLt
  unfold iblk
  rw [View.read_apply]
  show V m c main_arg0 _ = _
  rw [V_main_arg0]
  refine congrArg _ (funext fun a => Fin.ext ?_)
  match a with
  | ⟨0, _⟩ => show win0_0.index t (0 : Fin 3) * 1 + 1 * (u 0).val = (k 0).val; omega
  | ⟨1, _⟩ => show win0_0.index t (1 : Fin 3) * 512 + 1 * (u 1).val = (k 1).val; omega
  | ⟨2, _⟩ => show win0_0.index t (2 : Fin 3) * 3 + 1 * (u 2).val = (k 2).val; omega

/-- The transposed cloud read at point `t`: entry `(0, d, n)` of the block is `x[t / 4, n, d]`. -/
theorem cloud_read (c : Dev nD) (t : Fin cfg0.N) (u : S1x3x2048.Idx) (k : S8x2048x3.Idx)
    (h0 : (k 0).val = t.val / 4) (h1 : (k 1).val = (u 2).val) (h2 : (k 2).val = (u 1).val) :
    (iblk m c 1 t : Vec Ideal S1x3x2048 .f32) u = (m ((c : Thread nD τ).loc main_arg0) : S8x2048x3.Idx → EReal) k := by
  obtain ⟨-, -, -, e0, e1, e2, -⟩ := block_indices t
  have hu0 : (u 0).val < 1 := (u 0).isLt
  unfold iblk
  rw [View.read_apply]
  show V m c main_v0 _ = _
  rw [transposed_arg]
  refine transpose_apply _ _ _ _ k fun b => ?_
  match b with
  | ⟨0, _⟩ => show (k 0).val = win0_1.index t (0 : Fin 3) * 1 + 1 * (u 0).val; omega
  | ⟨1, _⟩ => show (k 2).val = win0_1.index t (1 : Fin 3) * 3 + 1 * (u 1).val; omega
  | ⟨2, _⟩ => show (k 1).val = win0_1.index t (2 : Fin 3) * 2048 + 1 * (u 2).val; omega

/-- What the body leaves in the output block, entry by entry, from the two blocks it loaded. -/
theorem block_written (x0 : Vec Ideal S1x512x3 .f32) (x1 : Vec Ideal S1x3x2048 .f32) (y : S1x512x2048.Idx) :
    out0_2 x0 x1 y = E2 x0 x1 y := by
  unfold out0_2
  rw [View.ld_unit_zero (S := S1x512x3) zero_offsets, View.ld_unit_zero (S := S1x3x2048) zero_offsets]
  exact canon2_eq x0 x1 y

/-- Entry `(0, r, n)` of the block written from rows `P0` of cloud `b` starting at row `i - r` and the transposed
    cloud `P1` is the distance between points `i` and `n` of cloud `b`. -/
theorem entry_eq (P0 : Vec Ideal S1x512x3 .f32) (P1 : Vec Ideal S1x3x2048 .f32) (x : SPts.Idx → EReal)
    (y : S1x512x2048.Idx) (b : Fin 8) (i j : Fin 2048)
    (hq : ∀ (d : Fin 3) (u : S1x512x3.Idx), (u 1).val = (y 1).val → (u 2).val = d.val → P0 u = x (ix3 b i d))
    (hk : ∀ (d : Fin 3) (u : S1x3x2048.Idx), (u 1).val = d.val → (u 2).val = (y 2).val → P1 u = x (ix3 b j d)) :
    E2 P0 P1 y = distAt x b i j := by
  show Ideal.sqrt ((((Ideal.ofBits .f32 0x00000000#32 : EReal)
      + (P0 (ix2_0 y) - P1 (ix2_1 y)) * (P0 (ix2_2 y) - P1 (ix2_3 y)))
      + (P0 (ix2_4 y) - P1 (ix2_5 y)) * (P0 (ix2_6 y) - P1 (ix2_7 y)))
      + (P0 (ix2_8 y) - P1 (ix2_9 y)) * (P0 (ix2_10 y) - P1 (ix2_11 y))) = _
  -- each coordinate's two reads of a block are at one and the same index
  rw [hq 0 (ix2_0 y) rfl rfl, hq 1 (ix2_4 y) rfl rfl, hq 2 (ix2_8 y) rfl rfl,
    hk 0 (ix2_1 y) rfl rfl, hk 1 (ix2_5 y) rfl rfl, hk 2 (ix2_9 y) rfl rfl]
  exact congrArg Ideal.sqrt (accumulated_eq_sum _ (fun d => x (ix3 b i d)) (fun d => x (ix3 b j d)))

/-- What point `t` writes back is block `t` of the array of distances of the argument. -/
theorem flushed_eq (c : Dev nD) (t : Fin cfg0.N) :
    (dats m 0 c).flushed 2 t
      = ((cfg0.win 2).blk t).view.read (Elt Ideal) (dist (m ((c : Thread nD τ).loc main_arg0))) := by
  show (cfg0.win 2).cut (grid0.coords t) ((dats m 0 c).after 2 t) = _
  rw [after0_2]
  funext y
  obtain ⟨-, -, -, -, -, -, e0, e1, e2⟩ := block_indices t
  have hN : t.val < 32 := lt_of_lt_of_eq t.isLt (show cfg0.N = 32 from N_0)
  have hy0 : (y 0).val < 1 := (y 0).isLt
  have hy1 : (y 1).val < 512 := (y 1).isLt
  have hy2 : (y 2).val < 2048 := (y 2).isLt
  show out0_2 (iblk m c 0 t) (iblk m c 1 t) y
    = dist (m ((c : Thread nD τ).loc main_arg0)) (((cfg0.win 2).blk t).view.emb y)
  have hemb : ((cfg0.win 2).blk t).view.emb y
      = ix3 (⟨t.val / 4, by omega⟩ : Fin 8) (⟨t.val % 4 * 512 + (y 1).val, by omega⟩ : Fin 2048)
          (⟨(y 2).val, hy2⟩ : Fin 2048) := by
    funext a; apply Fin.ext
    match a with
    | ⟨0, _⟩ => show win0_2.index t (0 : Fin 3) * 1 + 1 * (y 0).val = t.val / 4; omega
    | ⟨1, _⟩ => show win0_2.index t (1 : Fin 3) * 512 + 1 * (y 1).val = t.val % 4 * 512 + (y 1).val; omega
    | ⟨2, _⟩ => show win0_2.index t (2 : Fin 3) * 2048 + 1 * (y 2).val = (y 2).val; omega
  rw [hemb, dist_ix3]
  refine (block_written _ _ y).trans ?_
  refine entry_eq _ _ _ y _ _ _ (fun d u h1 h2 => ?_) (fun d u h1 h2 => ?_)
  · exact rows_read m c t u _ rfl (by show t.val % 4 * 512 + (y 1).val = t.val % 4 * 512 + (u 1).val; omega) h2.symm
  · exact cloud_read m c t u _ rfl h2.symm h1.symm

/-- An index of the result is in point `t`'s block iff each coordinate is in the block's range on its axis. -/
theorem mem_blk (t : Fin cfg0.N) (i : S8x2048x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v1).slice (win0_2.rect t)).set ↔ _
  rw [View.set_slice_whole, Rect.mem_set_unit]
  exact Iff.rfl

/-- Entry `(b, r, n)` of the result is written at point `4 b + r / 512`. -/
theorem covered (i : S8x2048x2048.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 2048 := (i 2).isLt
  obtain ⟨t, ht⟩ : ∃ t : Fin cfg0.N, t.val = (i 0).val * 4 + (i 1).val / 512 :=
    ⟨⟨(i 0).val * 4 + (i 1).val / 512, by rw [show cfg0.N = 32 from N_0]; omega⟩, rfl⟩
  obtain ⟨-, -, -, -, -, -, e0, e1, e2⟩ := block_indices t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 2048 ≤ (i 2).val ∧ (i 2).val < win0_2.index t (2 : Fin 3) * 2048 + 2048
    omega

/-- The result array after the run is the array of distances of the argument. -/
theorem final (c : Dev nD) : (dats m 0 c).arrAt 2 cfg0.N = dist (m ((c : Thread nD τ).loc main_arg0)) :=
  (dats m 0 c).arrAt_eq_of_cover 2 (dist (m ((c : Thread nD τ).loc main_arg0))) (fun t _ => flushed_eq m c t) covered

/-- The kernel's run, read: every weakly fair execution terminates with the result array at the distances of
    the argument and the argument unchanged. -/
theorem run : θ_run defs (onTc (τ := τ) (main (F := Ideal))) ⟨m, fun _ => 0, ρ⟩ fun r => ∀ c : Dev nD,
      r.2.mem ((c : Thread nD τ).loc main_v1) = dist (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.DistValue

end
-- ==== Proof.lean ====
/-
  Pairwise Euclidean distances of a batch of 8 clouds of 2048 points in three coordinates: a tiled kernel against
  the plain array expression.

  Both programs end with the array `[8, 2048, 2048]` whose entry `(b, i, j)` is the distance between points
  `i` and `j` of cloud `b` (`Cert.Dist.dist`, Proof/DistLaw.lean). The reference subtracts point `i` from point
  `j`, squares, sums the three squares from a zero and takes the root (Proof/RefDist.lean). The kernel, row tile
  by row tile, subtracts point `j` from point `i` and accumulates the three squares one after the other onto a
  zero before the root (Proof/KernelDist.lean). On the extended reals a difference and its opposite have the same
  square and a three-term sum may be bracketed either way, so the two arrays are equal entry by entry; the
  inputs' finiteness is not needed.

  The idealization rewrote nothing, so `preserves` is `True`. The three frames are the generated frame runs.
-/
import proofs.«150329_j84335977825047_2_alg».proof.Defs
import proofs.«150329_j84335977825047_2_alg».proof.Proof.Gen.Kernel
import proofs.«150329_j84335977825047_2_alg».proof.Proof.Gen.Kernel.Skeleton
import proofs.«150329_j84335977825047_2_alg».proof.Proof.Gen.Kernel.Launch
import proofs.«150329_j84335977825047_2_alg».proof.Proof.Gen.Kernel.Points
import proofs.«150329_j84335977825047_2_alg».proof.Proof.Gen.Kernel.Frame
import proofs.«150329_j84335977825047_2_alg».proof.Proof.Gen.KernelIdeal
import proofs.«150329_j84335977825047_2_alg».proof.Proof.Gen.KernelIdeal.Skeleton
import proofs.«150329_j84335977825047_2_alg».proof.Proof.Gen.KernelIdeal.Launch
import proofs.«150329_j84335977825047_2_alg».proof.Proof.Gen.KernelIdeal.Points
import proofs.«150329_j84335977825047_2_alg».proof.Proof.Gen.KernelIdeal.Frame
import proofs.«150329_j84335977825047_2_alg».proof.Proof.Gen.ReferenceIdeal
import proofs.«150329_j84335977825047_2_alg».proof.Proof.Gen.Pre_finite_inputs
import proofs.«150329_j84335977825047_2_alg».proof.Proof.Gen.KernelIdeal.Value
import proofs.«150329_j84335977825047_2_alg».proof.Proof.Gen.ReferenceIdeal.Run
import proofs.«150329_j84335977825047_2_alg».proof.Proof.Gen.ReferenceIdeal.Read
import proofs.«150329_j84335977825047_2_alg».proof.Proof.DistLaw
import proofs.«150329_j84335977825047_2_alg».proof.Proof.RefDist
import proofs.«150329_j84335977825047_2_alg».proof.Proof.KernelDist
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the clouds, both programs end with the distances of the clouds. -/
theorem algebraic : Cert.algebraic_KernelIdeal_ReferenceIdeal := by
  intro m ρ m' ρ' _ hagree
  refine ⟨fun c => Cert.Dist.dist (m ((c : Thread Cert.KernelIdeal.nD Cert.KernelIdeal.τ).loc Cert.KernelIdeal.main_arg0)),
    Cert.KernelIdeal.DistValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
